-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : FVec F S1000000 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  main_v3
-- ==== Kernel.lean ====
abbrev S1000000 : Shape := ⟨1, ![1000000]⟩
abbrev S1 : Shape := ⟨1, ![1]⟩
abbrev S_ : Shape := ⟨0, ![]⟩
abbrev S48832 : Shape := ⟨1, ![48832]⟩
abbrev S1048832 : Shape := ⟨1, ![1048832]⟩
abbrev S131072 : Shape := ⟨1, ![131072]⟩
abbrev S256 : Shape := ⟨1, ![256]⟩
abbrev S131327 : Shape := ⟨1, ![131327]⟩
abbrev S255 : Shape := ⟨1, ![255]⟩
abbrev S131326 : Shape := ⟨1, ![131326]⟩
abbrev S131324 : Shape := ⟨1, ![131324]⟩
abbrev S131320 : Shape := ⟨1, ![131320]⟩
abbrev S131312 : Shape := ⟨1, ![131312]⟩
abbrev S131296 : Shape := ⟨1, ![131296]⟩
abbrev S131264 : Shape := ⟨1, ![131264]⟩
abbrev S131200 : Shape := ⟨1, ![131200]⟩

abbrev nBuf : Space → Nat
  | .hbm => 6
  | .vmem => 7
  | .smem => 0
  | _ => 0

abbrev bufTy : (tb : Table) → Fin (tcTables nBuf tb) → BufTy
  | .hbm, ⟨0, _⟩ => ⟨S1000000, .f32⟩
  | .hbm, ⟨1, _⟩ => ⟨S1, .f32⟩
  | .hbm, ⟨2, _⟩ => ⟨S_, .f32⟩
  | .hbm, ⟨3, _⟩ => ⟨S48832, .f32⟩
  | .hbm, ⟨4, _⟩ => ⟨S1048832, .f32⟩
  | .hbm, ⟨5, _⟩ => ⟨S1000000, .f32⟩
  | .local _ .vmem, ⟨0, _⟩ => ⟨S131072, .f32⟩
  | .local _ .vmem, ⟨1, _⟩ => ⟨S131072, .f32⟩
  | .local _ .vmem, ⟨2, _⟩ => ⟨S256, .f32⟩
  | .local _ .vmem, ⟨3, _⟩ => ⟨S256, .f32⟩
  | .local _ .vmem, ⟨4, _⟩ => ⟨S131072, .f32⟩
  | .local _ .vmem, ⟨5, _⟩ => ⟨S131072, .f32⟩
  | .local _ .vmem, ⟨6, _⟩ => ⟨S131327, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c1_i32 : BitVec 32 := 1#32
  let v0 : BitVec 32 := Scalar.addi arg0 c1_i32
  let c512_i32 : BitVec 32 := 512#32
  let v1 : BitVec 32 := Scalar.muli v0 c512_i32
  let c0_i32 : BitVec 32 := 0#32
  ![v1.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1000000_S1_999999 : S1000000.Slices ![999999] S1
  shapeCasts_S1_S_ : S1.ShapeCasts S_
  bcast_S_S48832 : S_.BroadcastsInDim S48832 (![] : Fin 0 → Fin S48832.rank)
  concatenates_S1000000_S48832_S1048832_d0 : Shape.Concatenates [S1000000, S48832] S1048832 0
  inb_S131072_S131072_0 : ∀ a, (![0] : Fin 1 → Nat) a + S131072.size a ≤ S131072.size a
  h_S131072 : 0 < S131072.numel
  shapeCasts_S131072_S131072 : S131072.ShapeCasts S131072
  inb_S131327_S131072_0 : ∀ a, (![0] : Fin 1 → Nat) a + S131072.size a ≤ S131327.size a
  inb_S256_S255_0 : ∀ a, (![0] : Fin 1 → Nat) a + S255.size a ≤ S256.size a
  h_S255 : 0 < S255.numel
  shapeCasts_S255_S255 : S255.ShapeCasts S255
  inb_S131327_S255_131072 : ∀ a, (![131072] : Fin 1 → Nat) a + S255.size a ≤ S131327.size a
  inb_S131327_S131327_0 : ∀ a, (![0] : Fin 1 → Nat) a + S131327.size a ≤ S131327.size a
  h_S131327 : 0 < S131327.numel
  slices_S131327_o0_S131326 : S131327.Slices ![0] S131326
  slices_S131327_o1_S131326 : S131327.Slices ![1] S131326
  slices_S131326_o0_S131324 : S131326.Slices ![0] S131324
  slices_S131326_o2_S131324 : S131326.Slices ![2] S131324
  slices_S131324_o0_S131320 : S131324.Slices ![0] S131320
  slices_S131324_o4_S131320 : S131324.Slices ![4] S131320
  slices_S131320_o0_S131312 : S131320.Slices ![0] S131312
  slices_S131320_o8_S131312 : S131320.Slices ![8] S131312
  slices_S131312_o0_S131296 : S131312.Slices ![0] S131296
  slices_S131312_o16_S131296 : S131312.Slices ![16] S131296
  slices_S131296_o0_S131264 : S131296.Slices ![0] S131264
  slices_S131296_o32_S131264 : S131296.Slices ![32] S131264
  slices_S131264_o0_S131200 : S131264.Slices ![0] S131200
  slices_S131264_o64_S131200 : S131264.Slices ![64] S131200
  slices_S131200_o0_S131072 : S131200.Slices ![0] S131072
  slices_S131200_o128_S131072 : S131200.Slices ![128] S131072
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S131072.size a < S1048832.size a
  hwx0_0 : ∀ i : grid0.Coords, EltTy.bits .f32 = 32 ∨ (Rect.unit (s := S1048832) (fun a => cc0_transform_0 i a * S131072.size a) (fun a => (Pipeline.Clip.of (cc0_transform_0 i a) (S131072.size a) (S1048832.size a)).extent (S131072.size a)) fun a => Pipeline.Clip.inb (Pipeline.Clip.ok_of (hstart0_0 i a))).WholeWords (EltTy.packing .f32)
  hwxs0_0 : ∀ i : grid0.Coords, EltTy.bits .f32 = 32 ∨ (Rect.unit (s := S131072) (fun _ => 0) (fun a => (Pipeline.Clip.of (cc0_transform_0 i a) (S131072.size a) (S1048832.size a)).extent (S131072.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S1048832.size a
  hwx0_1 : ∀ i : grid0.Coords, EltTy.bits .f32 = 32 ∨ (Rect.block (s := S1048832) S256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S131072.size a < S1000000.size a
  hwx0_2 : ∀ i : grid0.Coords, EltTy.bits .f32 = 32 ∨ (Rect.unit (s := S1000000) (fun a => cc0_transform_2 i a * S131072.size a) (fun a => (Pipeline.Clip.of (cc0_transform_2 i a) (S131072.size a) (S1000000.size a)).extent (S131072.size a)) fun a => Pipeline.Clip.inb (Pipeline.Clip.ok_of (hstart0_2 i a))).WholeWords (EltTy.packing .f32)
  hwxs0_2 : ∀ i : grid0.Coords, EltTy.bits .f32 = 32 ∨ (Rect.unit (s := S131072) (fun _ => 0) (fun a => (Pipeline.Clip.of (cc0_transform_2 i a) (S131072.size a) (S1000000.size a)).extent (S131072.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v3) S131072.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v4) S131072.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000 : Shape := ⟨1, ![1000000]⟩
abbrev S1 : Shape := ⟨1, ![1]⟩
abbrev S_ : Shape := ⟨0, ![]⟩
abbrev S256 : Shape := ⟨1, ![256]⟩
abbrev S1000256 : Shape := ⟨1, ![1000256]⟩
abbrev S1000000x1 : Shape := ⟨2, ![1000000, 1]⟩
abbrev S1x256 : Shape := ⟨2, ![1, 256]⟩
abbrev S1000000x256 : Shape := ⟨2, ![1000000, 256]⟩
abbrev S1000000x256x1 : Shape := ⟨3, ![1000000, 256, 1]⟩

abbrev nBuf : Space → Nat
  | .hbm => 23
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1, .f32⟩
  | .hbm, ⟨2, _⟩ => ⟨S_, .f32⟩
  | .hbm, ⟨3, _⟩ => ⟨S256, .f32⟩
  | .hbm, ⟨4, _⟩ => ⟨S1000256, .f32⟩
  | .hbm, ⟨5, _⟩ => ⟨S1000000, .i32⟩
  | .hbm, ⟨6, _⟩ => ⟨S1000000x1, .i32⟩
  | .hbm, ⟨7, _⟩ => ⟨S256, .i32⟩
  | .hbm, ⟨8, _⟩ => ⟨S1x256, .i32⟩
  | .hbm, ⟨9, _⟩ => ⟨S1000000x256, .i32⟩
  | .hbm, ⟨10, _⟩ => ⟨S1000000x256, .i32⟩
  | .hbm, ⟨11, _⟩ => ⟨S1000000x256, .i32⟩
  | .hbm, ⟨12, _⟩ => ⟨S_, .i32⟩
  | .hbm, ⟨13, _⟩ => ⟨S1000000x256, .i32⟩
  | .hbm, ⟨14, _⟩ => ⟨S1000000x256, .i1⟩
  | .hbm, ⟨15, _⟩ => ⟨S_, .i32⟩
  | .hbm, ⟨16, _⟩ => ⟨S1000000x256, .i32⟩
  | .hbm, ⟨17, _⟩ => ⟨S1000000x256, .i32⟩
  | .hbm, ⟨18, _⟩ => ⟨S1000000x256, .i32⟩
  | .hbm, ⟨19, _⟩ => ⟨S1000000x256x1, .i32⟩
  | .hbm, ⟨20, _⟩ => ⟨S1000000x256, .f32⟩
  | .hbm, ⟨21, _⟩ => ⟨S_, .f32⟩
  | .hbm, ⟨22, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_v11 : Ref sig .tc := ⟨.hbm, 13, rfl⟩
abbrev main_v12 : Ref sig .tc := ⟨.hbm, 14, rfl⟩
abbrev main_c_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  slices_S1000000_S1_999999 : S1000000.Slices ![999999] S1
  shapeCasts_S1_S_ : S1.ShapeCasts S_
  bcast_S_S256 : S_.BroadcastsInDim S256 (![] : Fin 0 → Fin S256.rank)
  concatenates_S1000000_S256_S1000256_d0 : Shape.Concatenates [S1000000, S256] S1000256 0
  bcast_S1000000_S1000000x1_0 : S1000000.BroadcastsInDim S1000000x1 (![0] : Fin 1 → Fin S1000000x1.rank)
  bcast_S256_S1x256_1 : S256.BroadcastsInDim S1x256 (![1] : Fin 1 → Fin S1x256.rank)
  bcast_S1000000x1_S1000000x256_0_1 : S1000000x1.BroadcastsInDim S1000000x256 (![0, 1] : Fin 2 → Fin S1000000x256.rank)
  bcast_S1x256_S1000000x256_0_1 : S1x256.BroadcastsInDim S1000000x256 (![0, 1] : Fin 2 → Fin S1000000x256.rank)
  bcast_S_S1000000x256 : S_.BroadcastsInDim S1000000x256 (![] : Fin 0 → Fin S1000000x256.rank)
  bcast_S1000000x256_S1000000x256x1_0_1 : S1000000x256.BroadcastsInDim S1000000x256x1 (![0, 1] : Fin 2 → Fin S1000000x256x1.rank)
  reducesTo_S1000000x256_S1000000_d1 : S1000000x256.ReducesTo [1] S1000000
  h_S_ : 0 < S_.numel
  gather_S1000256_S1000000x256x1_S1000000x256_n_0_n_n_0_2_1_wf : GatherDims.WF S1000256 S1000000x256x1 S1000000x256 [] [0] [] [0] [] 2 ![1]

variable [Facts₀]

def gather_S1000256_S1000000x256x1_S1000000x256_n_0_n_n_0_2_1 : GatherDims S1000256 S1000000x256x1 S1000000x256 where
  offsetDims := []
  collapsedSliceDims := [0]
  operandBatchingDims := []
  startIndicesBatchingDims := []
  startIndexMap := [0]
  indexVectorDim := 2
  sliceSizes := ![1]
  wf := gather_S1000256_S1000000x256x1_S1000000x256_n_0_n_n_0_2_1_wf

class Facts : Prop extends Facts₀ where

variable [Facts]
-- ==== Proof.PoolBodyK.lean ====
/-
  The kernel body of the windowed min-pooling call, run once on symbolic staging buffers.

  The body copies its chunk of 131072 entries into the low part of a scratch line of 131327 entries and the first 255
  entries of the look-ahead block into the high part — the two stores tile the scratch line, so what the line holds
  afterwards is a function of the two input blocks alone (`scr`) —, reads the whole line back, folds it eight times
  with itself shifted by 1, 2, 4, …, 128 (`k0_pay3`), and stores the 131072 surviving entries as the output block
  (`outBlk`). Neither input buffer is written; the scratch line ends at contents nothing later reads.
-/
import proofs.«138398_j33182917329254_2_alg».proof.Proof.Gen.Kernel.Launch
import proofs.«138398_j33182917329254_2_alg».proof.Proof.Gen.Kernel.Skeleton
import proofs.«138398_j33182917329254_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.PoolBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's rectangles -/

/-- The whole chunk block. -/
abbrev rA : Rect S131072 := Rect.unit (s := S131072) ![0] S131072.size inb_S131072_S131072_0
/-- The first 255 entries of the look-ahead block. -/
abbrev rB : Rect S256 := Rect.unit (s := S256) ![0] S255.size inb_S256_S255_0
/-- The low part of the scratch line: entries 0 … 131071. -/
abbrev rLo : Rect S131327 := Rect.unit (s := S131327) ![0] S131072.size inb_S131327_S131072_0
/-- Its high part: entries 131072 … 131326. -/
abbrev rHi : Rect S131327 := Rect.unit (s := S131327) ![131072] S255.size inb_S131327_S255_131072
/-- The whole scratch line. -/
abbrev rAll : Rect S131327 := Rect.unit (s := S131327) ![0] S131327.size inb_S131327_S131327_0

/-! ## What the body leaves -/

/-- The two stores into the scratch line, last first. -/
def scrPieces (x0 : Vec F S131072 .f32) (x1 : Vec F S256 .f32) : List (View.Piece (Elt F) S131327 .f32) :=
  [⟨rHi, k0_pay2 (View.ld x1 rB)⟩, ⟨rLo, k0_pay1 (View.ld x0 rA)⟩]

/-- The scratch line after the two stores, from the two input blocks. -/
def scr (x0 : Vec F S131072 .f32) (x1 : Vec F S256 .f32) : Vec F S131327 .f32 := View.canon (scrPieces x0 x1)

/-- The output block after the body, from the two input blocks. -/
def outBlk (x0 : Vec F S131072 .f32) (x1 : Vec F S256 .f32) : Vec F S131072 .f32 :=
  View.canon [⟨rA, k0_pay3 (View.ld (scr x0 x1) rAll)⟩]

/-- The low and the high part together are the whole scratch line. -/
theorem cover_scr (x0 : Vec F S131072 .f32) (x1 : Vec F S256 .f32) (y : S131327.Idx) :
    ∃ pc ∈ scrPieces x0 x1, y ∈ pc.1.set := by
  have hy : (y 0).val < 131327 := (y 0).isLt
  by_cases h : (y 0).val < 131072
  · refine ⟨⟨rLo, _⟩, List.mem_cons_of_mem _ List.mem_cons_self, ?_⟩
    rw [Rect.mem_set_unit]
    intro a; match a with
    | ⟨0, _⟩ => exact ⟨Nat.zero_le _, by show (y 0).val < 0 + 131072; omega⟩
  · refine ⟨⟨rHi, _⟩, List.mem_cons_self, ?_⟩
    rw [Rect.mem_set_unit]
    intro a; match a with
    | ⟨0, _⟩ => exact ⟨by show 131072 ≤ (y 0).val; omega, by show (y 0).val < 131072 + 255; omega⟩

/-- The one store into the output block is the whole block. -/
theorem cover_out (p : Vec F S131072 .f32) (y : S131072.Idx) :
    ∃ pc ∈ ([⟨rA, p⟩] : List (View.Piece (Elt F) S131072 .f32)), y ∈ pc.1.set := by
  refine ⟨⟨rA, p⟩, List.mem_cons_self, ?_⟩
  rw [Rect.mem_set_unit]
  intro a; match a with
  | ⟨0, _⟩ => exact ⟨Nat.zero_le _, by have h : (y 0).val < 131072 := (y 0).isLt; show (y 0).val < 0 + 131072; omega⟩

/-! ## The body's triple -/

set_option maxHeartbeats 1000000 in
/-- The body on whole staging buffers — the chunk's at `x0`, the look-ahead's at `x1`, the output's and the scratch
    line at anything — runs to the end with the inputs' as they were, the output's at `outBlk x0 x1` and the scratch
    line at some contents. -/
theorem sound_kernel (c : Dev nD) (E : Set ℕ) (i : grid0.Coords)
    (arg1 : Memref sig .tc .vmem S131072 .f32) (harg1 : arg1.IsWhole)
    (arg2 : Memref sig .tc .vmem S256 .f32) (harg2 : arg2.IsWhole)
    (arg3 : Memref sig .tc .vmem S131072 .f32) (harg3 : arg3.IsWhole)
    (x0 : Vec F S131072 .f32) (x1 : Vec F S256 .f32) (K : PUnit → sProp 𝕄) :
    iprop(owns (c : Thread nD τ) arg1 fullShare x0 ∗ owns (c : Thread nD τ) arg2 fullShare x1
        ∗ (∃ d, owns (c : Thread nD τ) arg3 fullShare d)
        ∗ (∃ d, owns (c : Thread nD τ) (Memref.whole cc0_scratch0) fullShare d)
        ∗ (iprop(owns (c : Thread nD τ) arg1 fullShare x0 ∗ owns (c : Thread nD τ) arg2 fullShare x1
              ∗ owns (c : Thread nD τ) arg3 fullShare (outBlk x0 x1)
              ∗ (∃ d, owns (c : Thread nD τ) (Memref.whole cc0_scratch0) fullShare d)) -∗ K ⟨⟩))
      ⊢ wp frame (wpE (defs₀ (F := F)) Variants.none c none) E
          (cc0__pool_min_kernel i arg1 harg1 arg2 harg2 arg3 harg3 (Memref.whole cc0_scratch0) (Memref.isWhole_whole _)) K := by
  simp only [cc0__pool_min_kernel_eq_skeleton]; unfold cc0__pool_min_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_out _)]
    have e : sound_kernel.sl.H3_2 c arg1 arg2 f0 f1
        = scrPieces (View.read (Elt F) arg1.view f0) (View.read (Elt F) arg2.view f1) := rfl
    unfold outBlk sound_kernel.sl.v10
    rw [e, View.readCov_eq_canon_ld _ _ _ (cover_scr (View.read (Elt F) arg1.view f0) (View.read (Elt F) arg2.view f1))]
    rfl
  · iexists _; iexists _; isplitr
    swap; · iexact H3
    ipureintro; rfl

end Cert.Kernel.PoolBody

end
-- ==== Proof.PoolRunK.lean ====
/-
  The run of the windowed min-pooling program: its host prefix, the pipelined call over eight chunks, the return.

  The host prefix builds the padded signal (the signal followed by copies of its last entry). The call hands that ONE
  array to two input windows — the chunk window and the look-ahead window — so the array's ownership is split in two
  halves, one per window, for the duration of the call; both windows only read. The third window is the result, whose
  last block overhangs the result array and is written back cut to the array's end. Between grid points the body keeps
  nothing: the scratch line is refilled at every point, so the invariant is just "the scratch line holds something".

  What the staging buffers hold after the body at point `t`: the chunk block `t`, the look-ahead block `t`, and
  `outBlk` of the two. The run's post: the result array is what the eight write-backs leave (`Dat.arrAt`), and every
  array the call does not touch — the signal among them — is as the host prefix left it.
-/
import proofs.«138398_j33182917329254_2_alg».proof.Proof.PoolBodyK
import Idealize.ShloMosaic.Lib.Pipeline.Launch
import Idealize.ShloMosaic.Lib.StableHlo.Run

set_option maxRecDepth 16384

noncomputable section

namespace Cert.Kernel.PoolRun

open Cert.Kernel Cert.Kernel.Gen Cert.Kernel.PoolBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

/-! ## The arrays as the call finds them -/

/-- Core `c`'s buffer contents after the host prefix. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The host prefix writes only its own results: the signal is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The chunk block at point `t` as a whole staging buffer (every chunk lies inside the padded array, so the filler is
    never seen). -/
def blkA (c : Dev nD) (t : Fin cfg0.N) : Vec F S131072 .f32 :=
  win0_0.fill (grid0.coords t) (fun _ => Scalar.ofBits .f32 0#32) (iblk m c 0 t)
/-- The look-ahead block at point `t`. -/
def blkB (c : Dev nD) (t : Fin cfg0.N) : Vec F S256 .f32 :=
  win0_1.fill (grid0.coords t) (fun _ => Scalar.ofBits .f32 0#32) (iblk m c 1 t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => blkA m c t
    | ⟨1, _⟩ => blkB m c t
    | ⟨2, _⟩ => outBlk (blkA m c t) (blkB m c t)
  Φ _ := iprop(∃ d, owns (c : Thread nD τ) (Memref.whole cc0_scratch0) fullShare d)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem Phi_eq (c : Dev nD) (t : Fin (cfg0.N + 1)) :
    (dats m 0 c).Φ t = iprop(∃ d, owns (c : Thread nD τ) (Memref.whole cc0_scratch0) fullShare d) := rfl
theorem after0 (c : Dev nD) (t : Fin cfg0.N) : (dats m 0 c).after 0 t = blkA m c t := by dsimp only [dats]
theorem after1 (c : Dev nD) (t : Fin cfg0.N) : (dats m 0 c).after 1 t = blkB m c t := by dsimp only [dats]
theorem after2 (c : Dev nD) (t : Fin cfg0.N) : (dats m 0 c).after 2 t = outBlk (blkA m c t) (blkB m c t) := by dsimp only [dats]

/-- No chunk and no look-ahead block is cut. -/
theorem clip0 : ∀ (t : Fin cfg0.N) a, (cfg0.win 0).clip (cfg0.grid.coords t) a = none :=
  fun t => (win0_0.clipped_eq_false_iff (grid0.coords t)).mp
    ((by decide +kernel : ∀ t : Fin grid0.N, win0_0.clipped (grid0.coords t) = false) t)
theorem clip1 : ∀ (t : Fin cfg0.N) a, (cfg0.win 1).clip (cfg0.grid.coords t) a = none :=
  fun t => (win0_1.clipped_eq_false_iff (grid0.coords t)).mp
    ((by decide +kernel : ∀ t : Fin grid0.N, win0_1.clipped (grid0.coords t) = false) t)
/-- The result window is never fetched. -/
theorem fetch0_2 : ∀ t : Fin cfg0.N, (cfg0.win 2).fetch t = false :=
  (by decide +kernel : ∀ t : Fin grid0.N, win0_2.fetch t = false)

/-- What the body finds: the two input buffers just fetched, the result's at anything. -/
theorem before0 (c : Dev nD) (t : Fin cfg0.N) (d) : (dats m 0 c).before 0 t d = blkA m c t := by
  unfold Dat.before; rw [if_pos (fetch0_0 t)]
  exact ((dats m 0 c).fetched_of_clip_none 0 t (clip0 t) d _)
theorem before1 (c : Dev nD) (t : Fin cfg0.N) (d) : (dats m 0 c).before 1 t d = blkB m c t := by
  unfold Dat.before; rw [if_pos (fetch0_1 t)]
  exact ((dats m 0 c).fetched_of_clip_none 1 t (clip1 t) d _)
theorem before2 (c : Dev nD) (t : Fin cfg0.N) (d) : (dats m 0 c).before 2 t d = d := by
  unfold Dat.before
  rw [fetch0_2 t, if_neg Bool.false_ne_true]
  by_cases h0 : t.val = 0
  · rw [if_pos h0]
  · rw [if_neg h0]; dsimp only; rw [if_pos (flush0_2 _)]

/-! ## The body obligation -/

theorem body_obligation (c : Dev nD) : BodyObligationLoose (dats m 0 c) (defs₀ (F := F)) Variants.none () Set.univ := fun t => by
  rw [bigSep_W0, bigSep_W0]
  simp only
  rw [Phi_eq, Phi_eq, show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (blkA m c t) (blkB m c t) _)
  isplitl [H0]; · iexact H0
  isplitl [H1]; · iexact H1
  isplitl [H2]; · iexists _; iexact H2
  isplitl [HΦ]; · iexact HΦ
  iintro ⟨H0, H1, H2, HΦ⟩
  isplitl [HΦ]; · iexact HΦ
  isplitl [Ho]; · iexact Ho
  isplitl [H0]
  · iexists (blkA m c t)
    rw [after0, Window.fill_cut]; iexact H0
  isplitl [H1]
  · rw [after1]; iexact H1
  · iexists (outBlk (blkA m c t) (blkB m c t))
    rw [after2, Window.fill_cut]; iexact H2

/-! ## The launch -/

/-- The launch element of the pipeline's ghost state: every staging cell at round 0. -/
def u₀ : UR sig nD τ := initOf (Pipeline.cells cfgs cellOf_inj) (Pipeline.launchToks cfgs cellOf_inj)

/-- The run's post: the result array is what the write-backs leave, and the signal is as launched. -/
def QC : PUnit × MemSt nD τ sig (Elt F) → Prop := fun r =>
  ∀ c : Dev nD, r.2.mem ((c : Thread nD τ).loc main_v4) = (dats m 0 c).arrAt 2 cfg0.N
    ∧ r.2.mem ((c : Thread nD τ).loc main_arg0) = m ((c : Thread nD τ).loc main_arg0)

/-- The padded array's whole ownership is dealt in halves to the two windows that read it; the result array goes to its
    window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, show Finset.univ.image (Pipeline.arrRef spec0) = {main_v3, main_v4} from by decide,
    bigSep_insert (by decide), bigSep_singleton]
  have e0 : (dats m 0 c).share 0 = fullShare.left := by unfold Dat.share; rfl
  have e1 : (dats m 0 c).share 1 = fullShare.right := by unfold Dat.share; rfl
  have e2 : (dats m 0 c).share 2 = fullShare := by unfold Dat.share; rfl
  have z : ∀ w, (dats m 0 c).arrAt w 0 = V m c (Pipeline.arrRef spec0 w) := fun w => A_eq m c w
  dsimp only
  rw [e0, e1, e2, z 0, z 1, z 2]
  simp only [View.set_whole]
  show iprop((((c : Thread nD τ).loc main_v3) ↦{fullShare} V m c main_v3) ∗ (((c : Thread nD τ).loc main_v4) ↦{fullShare} V m c main_v4))
    ⊢ iprop((((c : Thread nD τ).loc main_v3) ↦{fullShare.left} V m c main_v3) ∗ (((c : Thread nD τ).loc main_v3) ↦{fullShare.right} V m c main_v3)
        ∗ (((c : Thread nD τ).loc main_v4) ↦{fullShare} V m c main_v4))
  have hs : ((((c : Thread nD τ).loc main_v3) ↦{fullShare} V m c main_v3 : sProp 𝕄))
      ⊢ iprop((((c : Thread nD τ).loc main_v3) ↦{fullShare.left} V m c main_v3) ∗ (((c : Thread nD τ).loc main_v3) ↦{fullShare.right} V m c main_v3)) :=
    (pointsTo_share (PosShare.mem_left_op_right fullShare)).1
  iintro ⟨H3, H4⟩
  ihave H := hs $$ H3
  icases H with ⟨Ha, Hb⟩
  isplitl [Ha]; · iexact Ha
  isplitl [Hb]; · iexact Hb
  iexact H4

-- the launch theorem's implicit arguments are found by unifying its conclusion with this one, which takes unfolding
-- plain definitions in a metavariable's type
set_option backward.isDefEq.respectTransparency.types false in
/-- At the compiled mesh, for any float values, from any memory whose semaphore counters are zero: every weakly fair
    execution of the program terminates without a fault, the result array holding what the eight write-backs leave
    and the signal what it held. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := V m)
    (hmain := Pipeline.hmain_prefix cfgs 0 defs₀ Variants.none m main hostOps0 hostOps0_sub hostOps0_fresh main_chain)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by
      rw [scopedRest0_eq, Phi_eq]
      simp only [owns_whole_eq]
      iintro ⟨-, ⟨%f, H⟩⟩
      iexists f; iexists f; isplitr; · ipureintro; rfl
      iexact H)
    (hout := fun c => by
      rw [scopedRest0_eq, Phi_eq]
      simp only [owns_whole_eq]
      iintro ⟨%d, %f, -, H⟩
      isplitr; · iempintro
      iexists f; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1 2,
      ((h c).2 main_arg0 (Pipeline.mem_restRefs_of main_arg0 (by decide) (by decide))).trans (V_main_arg0 m c)⟩)

/-- The frame: the program runs to the end and the signal ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.PoolRun

end
-- ==== Proof.PoolBodyI.lean ====
/-
  The kernel body of the windowed min-pooling call, run once on symbolic staging buffers.

  The body copies its chunk of 131072 entries into the low part of a scratch line of 131327 entries and the first 255
  entries of the look-ahead block into the high part — the two stores tile the scratch line, so what the line holds
  afterwards is a function of the two input blocks alone (`scr`) —, reads the whole line back, folds it eight times
  with itself shifted by 1, 2, 4, …, 128 (`k0_pay3`), and stores the 131072 surviving entries as the output block
  (`outBlk`). Neither input buffer is written; the scratch line ends at contents nothing later reads.
-/
import proofs.«138398_j33182917329254_2_alg».proof.Proof.Gen.KernelIdeal.Launch
import proofs.«138398_j33182917329254_2_alg».proof.Proof.Gen.KernelIdeal.Skeleton
import proofs.«138398_j33182917329254_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.PoolBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's rectangles -/

/-- The whole chunk block. -/
abbrev rA : Rect S131072 := Rect.unit (s := S131072) ![0] S131072.size inb_S131072_S131072_0
/-- The first 255 entries of the look-ahead block. -/
abbrev rB : Rect S256 := Rect.unit (s := S256) ![0] S255.size inb_S256_S255_0
/-- The low part of the scratch line: entries 0 … 131071. -/
abbrev rLo : Rect S131327 := Rect.unit (s := S131327) ![0] S131072.size inb_S131327_S131072_0
/-- Its high part: entries 131072 … 131326. -/
abbrev rHi : Rect S131327 := Rect.unit (s := S131327) ![131072] S255.size inb_S131327_S255_131072
/-- The whole scratch line. -/
abbrev rAll : Rect S131327 := Rect.unit (s := S131327) ![0] S131327.size inb_S131327_S131327_0

/-! ## What the body leaves -/

/-- The two stores into the scratch line, last first. -/
def scrPieces (x0 : Vec F S131072 .f32) (x1 : Vec F S256 .f32) : List (View.Piece (Elt F) S131327 .f32) :=
  [⟨rHi, k0_pay2 (View.ld x1 rB)⟩, ⟨rLo, k0_pay1 (View.ld x0 rA)⟩]

/-- The scratch line after the two stores, from the two input blocks. -/
def scr (x0 : Vec F S131072 .f32) (x1 : Vec F S256 .f32) : Vec F S131327 .f32 := View.canon (scrPieces x0 x1)

/-- The output block after the body, from the two input blocks. -/
def outBlk (x0 : Vec F S131072 .f32) (x1 : Vec F S256 .f32) : Vec F S131072 .f32 :=
  View.canon [⟨rA, k0_pay3 (View.ld (scr x0 x1) rAll)⟩]

/-- The low and the high part together are the whole scratch line. -/
theorem cover_scr (x0 : Vec F S131072 .f32) (x1 : Vec F S256 .f32) (y : S131327.Idx) :
    ∃ pc ∈ scrPieces x0 x1, y ∈ pc.1.set := by
  have hy : (y 0).val < 131327 := (y 0).isLt
  by_cases h : (y 0).val < 131072
  · refine ⟨⟨rLo, _⟩, List.mem_cons_of_mem _ List.mem_cons_self, ?_⟩
    rw [Rect.mem_set_unit]
    intro a; match a with
    | ⟨0, _⟩ => exact ⟨Nat.zero_le _, by show (y 0).val < 0 + 131072; omega⟩
  · refine ⟨⟨rHi, _⟩, List.mem_cons_self, ?_⟩
    rw [Rect.mem_set_unit]
    intro a; match a with
    | ⟨0, _⟩ => exact ⟨by show 131072 ≤ (y 0).val; omega, by show (y 0).val < 131072 + 255; omega⟩

/-- The one store into the output block is the whole block. -/
theorem cover_out (p : Vec F S131072 .f32) (y : S131072.Idx) :
    ∃ pc ∈ ([⟨rA, p⟩] : List (View.Piece (Elt F) S131072 .f32)), y ∈ pc.1.set := by
  refine ⟨⟨rA, p⟩, List.mem_cons_self, ?_⟩
  rw [Rect.mem_set_unit]
  intro a; match a with
  | ⟨0, _⟩ => exact ⟨Nat.zero_le _, by have h : (y 0).val < 131072 := (y 0).isLt; show (y 0).val < 0 + 131072; omega⟩

/-! ## The body's triple -/

set_option maxHeartbeats 1000000 in
/-- The body on whole staging buffers — the chunk's at `x0`, the look-ahead's at `x1`, the output's and the scratch
    line at anything — runs to the end with the inputs' as they were, the output's at `outBlk x0 x1` and the scratch
    line at some contents. -/
theorem sound_kernel (c : Dev nD) (E : Set ℕ) (i : grid0.Coords)
    (arg1 : Memref sig .tc .vmem S131072 .f32) (harg1 : arg1.IsWhole)
    (arg2 : Memref sig .tc .vmem S256 .f32) (harg2 : arg2.IsWhole)
    (arg3 : Memref sig .tc .vmem S131072 .f32) (harg3 : arg3.IsWhole)
    (x0 : Vec F S131072 .f32) (x1 : Vec F S256 .f32) (K : PUnit → sProp 𝕄) :
    iprop(owns (c : Thread nD τ) arg1 fullShare x0 ∗ owns (c : Thread nD τ) arg2 fullShare x1
        ∗ (∃ d, owns (c : Thread nD τ) arg3 fullShare d)
        ∗ (∃ d, owns (c : Thread nD τ) (Memref.whole cc0_scratch0) fullShare d)
        ∗ (iprop(owns (c : Thread nD τ) arg1 fullShare x0 ∗ owns (c : Thread nD τ) arg2 fullShare x1
              ∗ owns (c : Thread nD τ) arg3 fullShare (outBlk x0 x1)
              ∗ (∃ d, owns (c : Thread nD τ) (Memref.whole cc0_scratch0) fullShare d)) -∗ K ⟨⟩))
      ⊢ wp frame (wpE (defs₀ (F := F)) Variants.none c none) E
          (cc0__pool_min_kernel i arg1 harg1 arg2 harg2 arg3 harg3 (Memref.whole cc0_scratch0) (Memref.isWhole_whole _)) K := by
  simp only [cc0__pool_min_kernel_eq_skeleton]; unfold cc0__pool_min_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_out _)]
    have e : sound_kernel.sl.H3_2 c arg1 arg2 f0 f1
        = scrPieces (View.read (Elt F) arg1.view f0) (View.read (Elt F) arg2.view f1) := rfl
    unfold outBlk sound_kernel.sl.v10
    rw [e, View.readCov_eq_canon_ld _ _ _ (cover_scr (View.read (Elt F) arg1.view f0) (View.read (Elt F) arg2.view f1))]
    rfl
  · iexists _; iexists _; isplitr
    swap; · iexact H3
    ipureintro; rfl

end Cert.KernelIdeal.PoolBody

end
-- ==== Proof.PoolRunI.lean ====
/-
  The run of the windowed min-pooling program: its host prefix, the pipelined call over eight chunks, the return.

  The host prefix builds the padded signal (the signal followed by copies of its last entry). The call hands that ONE
  array to two input windows — the chunk window and the look-ahead window — so the array's ownership is split in two
  halves, one per window, for the duration of the call; both windows only read. The third window is the result, whose
  last block overhangs the result array and is written back cut to the array's end. Between grid points the body keeps
  nothing: the scratch line is refilled at every point, so the invariant is just "the scratch line holds something".

  What the staging buffers hold after the body at point `t`: the chunk block `t`, the look-ahead block `t`, and
  `outBlk` of the two. The run's post: the result array is what the eight write-backs leave (`Dat.arrAt`), and every
  array the call does not touch — the signal among them — is as the host prefix left it.
-/
import proofs.«138398_j33182917329254_2_alg».proof.Proof.PoolBodyI
import Idealize.ShloMosaic.Lib.Pipeline.Launch
import Idealize.ShloMosaic.Lib.StableHlo.Run

set_option maxRecDepth 16384

noncomputable section

namespace Cert.KernelIdeal.PoolRun

open Cert.KernelIdeal Cert.KernelIdeal.Gen Cert.KernelIdeal.PoolBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

/-! ## The arrays as the call finds them -/

/-- Core `c`'s buffer contents after the host prefix. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The host prefix writes only its own results: the signal is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The chunk block at point `t` as a whole staging buffer (every chunk lies inside the padded array, so the filler is
    never seen). -/
def blkA (c : Dev nD) (t : Fin cfg0.N) : Vec F S131072 .f32 :=
  win0_0.fill (grid0.coords t) (fun _ => Scalar.ofBits .f32 0#32) (iblk m c 0 t)
/-- The look-ahead block at point `t`. -/
def blkB (c : Dev nD) (t : Fin cfg0.N) : Vec F S256 .f32 :=
  win0_1.fill (grid0.coords t) (fun _ => Scalar.ofBits .f32 0#32) (iblk m c 1 t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => blkA m c t
    | ⟨1, _⟩ => blkB m c t
    | ⟨2, _⟩ => outBlk (blkA m c t) (blkB m c t)
  Φ _ := iprop(∃ d, owns (c : Thread nD τ) (Memref.whole cc0_scratch0) fullShare d)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem Phi_eq (c : Dev nD) (t : Fin (cfg0.N + 1)) :
    (dats m 0 c).Φ t = iprop(∃ d, owns (c : Thread nD τ) (Memref.whole cc0_scratch0) fullShare d) := rfl
theorem after0 (c : Dev nD) (t : Fin cfg0.N) : (dats m 0 c).after 0 t = blkA m c t := by dsimp only [dats]
theorem after1 (c : Dev nD) (t : Fin cfg0.N) : (dats m 0 c).after 1 t = blkB m c t := by dsimp only [dats]
theorem after2 (c : Dev nD) (t : Fin cfg0.N) : (dats m 0 c).after 2 t = outBlk (blkA m c t) (blkB m c t) := by dsimp only [dats]

/-- No chunk and no look-ahead block is cut. -/
theorem clip0 : ∀ (t : Fin cfg0.N) a, (cfg0.win 0).clip (cfg0.grid.coords t) a = none :=
  fun t => (win0_0.clipped_eq_false_iff (grid0.coords t)).mp
    ((by decide +kernel : ∀ t : Fin grid0.N, win0_0.clipped (grid0.coords t) = false) t)
theorem clip1 : ∀ (t : Fin cfg0.N) a, (cfg0.win 1).clip (cfg0.grid.coords t) a = none :=
  fun t => (win0_1.clipped_eq_false_iff (grid0.coords t)).mp
    ((by decide +kernel : ∀ t : Fin grid0.N, win0_1.clipped (grid0.coords t) = false) t)
/-- The result window is never fetched. -/
theorem fetch0_2 : ∀ t : Fin cfg0.N, (cfg0.win 2).fetch t = false :=
  (by decide +kernel : ∀ t : Fin grid0.N, win0_2.fetch t = false)

/-- What the body finds: the two input buffers just fetched, the result's at anything. -/
theorem before0 (c : Dev nD) (t : Fin cfg0.N) (d) : (dats m 0 c).before 0 t d = blkA m c t := by
  unfold Dat.before; rw [if_pos (fetch0_0 t)]
  exact ((dats m 0 c).fetched_of_clip_none 0 t (clip0 t) d _)
theorem before1 (c : Dev nD) (t : Fin cfg0.N) (d) : (dats m 0 c).before 1 t d = blkB m c t := by
  unfold Dat.before; rw [if_pos (fetch0_1 t)]
  exact ((dats m 0 c).fetched_of_clip_none 1 t (clip1 t) d _)
theorem before2 (c : Dev nD) (t : Fin cfg0.N) (d) : (dats m 0 c).before 2 t d = d := by
  unfold Dat.before
  rw [fetch0_2 t, if_neg Bool.false_ne_true]
  by_cases h0 : t.val = 0
  · rw [if_pos h0]
  · rw [if_neg h0]; dsimp only; rw [if_pos (flush0_2 _)]

/-! ## The body obligation -/

theorem body_obligation (c : Dev nD) : BodyObligationLoose (dats m 0 c) (defs₀ (F := F)) Variants.none () Set.univ := fun t => by
  rw [bigSep_W0, bigSep_W0]
  simp only
  rw [Phi_eq, Phi_eq, show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (blkA m c t) (blkB m c t) _)
  isplitl [H0]; · iexact H0
  isplitl [H1]; · iexact H1
  isplitl [H2]; · iexists _; iexact H2
  isplitl [HΦ]; · iexact HΦ
  iintro ⟨H0, H1, H2, HΦ⟩
  isplitl [HΦ]; · iexact HΦ
  isplitl [Ho]; · iexact Ho
  isplitl [H0]
  · iexists (blkA m c t)
    rw [after0, Window.fill_cut]; iexact H0
  isplitl [H1]
  · rw [after1]; iexact H1
  · iexists (outBlk (blkA m c t) (blkB m c t))
    rw [after2, Window.fill_cut]; iexact H2

/-! ## The launch -/

/-- The launch element of the pipeline's ghost state: every staging cell at round 0. -/
def u₀ : UR sig nD τ := initOf (Pipeline.cells cfgs cellOf_inj) (Pipeline.launchToks cfgs cellOf_inj)

/-- The run's post: the result array is what the write-backs leave, and the signal is as launched. -/
def QC : PUnit × MemSt nD τ sig (Elt F) → Prop := fun r =>
  ∀ c : Dev nD, r.2.mem ((c : Thread nD τ).loc main_v4) = (dats m 0 c).arrAt 2 cfg0.N
    ∧ r.2.mem ((c : Thread nD τ).loc main_arg0) = m ((c : Thread nD τ).loc main_arg0)

/-- The padded array's whole ownership is dealt in halves to the two windows that read it; the result array goes to its
    window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, show Finset.univ.image (Pipeline.arrRef spec0) = {main_v3, main_v4} from by decide,
    bigSep_insert (by decide), bigSep_singleton]
  have e0 : (dats m 0 c).share 0 = fullShare.left := by unfold Dat.share; rfl
  have e1 : (dats m 0 c).share 1 = fullShare.right := by unfold Dat.share; rfl
  have e2 : (dats m 0 c).share 2 = fullShare := by unfold Dat.share; rfl
  have z : ∀ w, (dats m 0 c).arrAt w 0 = V m c (Pipeline.arrRef spec0 w) := fun w => A_eq m c w
  dsimp only
  rw [e0, e1, e2, z 0, z 1, z 2]
  simp only [View.set_whole]
  show iprop((((c : Thread nD τ).loc main_v3) ↦{fullShare} V m c main_v3) ∗ (((c : Thread nD τ).loc main_v4) ↦{fullShare} V m c main_v4))
    ⊢ iprop((((c : Thread nD τ).loc main_v3) ↦{fullShare.left} V m c main_v3) ∗ (((c : Thread nD τ).loc main_v3) ↦{fullShare.right} V m c main_v3)
        ∗ (((c : Thread nD τ).loc main_v4) ↦{fullShare} V m c main_v4))
  have hs : ((((c : Thread nD τ).loc main_v3) ↦{fullShare} V m c main_v3 : sProp 𝕄))
      ⊢ iprop((((c : Thread nD τ).loc main_v3) ↦{fullShare.left} V m c main_v3) ∗ (((c : Thread nD τ).loc main_v3) ↦{fullShare.right} V m c main_v3)) :=
    (pointsTo_share (PosShare.mem_left_op_right fullShare)).1
  iintro ⟨H3, H4⟩
  ihave H := hs $$ H3
  icases H with ⟨Ha, Hb⟩
  isplitl [Ha]; · iexact Ha
  isplitl [Hb]; · iexact Hb
  iexact H4

-- the launch theorem's implicit arguments are found by unifying its conclusion with this one, which takes unfolding
-- plain definitions in a metavariable's type
set_option backward.isDefEq.respectTransparency.types false in
/-- At the compiled mesh, for any float values, from any memory whose semaphore counters are zero: every weakly fair
    execution of the program terminates without a fault, the result array holding what the eight write-backs leave
    and the signal what it held. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := V m)
    (hmain := Pipeline.hmain_prefix cfgs 0 defs₀ Variants.none m main hostOps0 hostOps0_sub hostOps0_fresh main_chain)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by
      rw [scopedRest0_eq, Phi_eq]
      simp only [owns_whole_eq]
      iintro ⟨-, ⟨%f, H⟩⟩
      iexists f; iexists f; isplitr; · ipureintro; rfl
      iexact H)
    (hout := fun c => by
      rw [scopedRest0_eq, Phi_eq]
      simp only [owns_whole_eq]
      iintro ⟨%d, %f, -, H⟩
      isplitr; · iempintro
      iexists f; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1 2,
      ((h c).2 main_arg0 (Pipeline.mem_restRefs_of main_arg0 (by decide) (by decide))).trans (V_main_arg0 m c)⟩)

/-- The frame: the program runs to the end and the signal ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.PoolRun

end
-- ==== Proof.PoolSpec.lean ====
/-
  The mathematics of windowed min-pooling over a signal continued past its end.

  For a sequence `f : ℕ → EReal` the WINDOW MINIMUM `winMin n f t` is the infimum of the `n` consecutive entries
  `f t, f (t+1), …, f (t+n-1)` (the top element for the empty window). Two facts carry both programs:

  * DOUBLING: a window of length `n + n` is two windows of length `n` side by side, so
    `winMin (n + n) f t = min (winMin n f t) (winMin n f (t + n))`. Iterated eight times from windows of length one this is
    the sparse-table scheme: `a₀ = f`, `a_{k+1} t = min (a_k t) (a_k (t + 2^k))`, and `a₈ = winMin 256 f`.
  * a window minimum only looks at the entries inside the window (`winMin_congr`), so two sequences that agree on
    `[t, t + n)` have the same window minimum at `t`.

  The signal of one million entries is continued with its last entry (`padded`); the pooled result at `t` is the
  minimum of the 256 entries of the continued signal starting at `t` (`poolMin`). No finiteness is used anywhere:
  `min` on the extended reals is associative, commutative and idempotent with top element `⊤`.
-/
import Idealize.ShloMosaic.PureOps.Ideal
import Idealize.ShloMosaic.Lib.ValueIdx

noncomputable section

namespace Cert.PoolSpec

open Idealize.ShloMosaic Idealize.ShloMosaic.ValueIdx

/-- The infimum of the `n` consecutive entries of `f` starting at `t`. -/
def winMin (n : ℕ) (f : ℕ → EReal) (t : ℕ) : EReal := (Finset.range n).inf fun j => f (t + j)

theorem winMin_zero (f : ℕ → EReal) (t : ℕ) : winMin 0 f t = ⊤ := by
  simp [winMin]

/-- A window of length one is its one entry. -/
theorem winMin_one (f : ℕ → EReal) (t : ℕ) : winMin 1 f t = f t := by
  simp [winMin]

/-- One more entry at the far end. -/
theorem winMin_succ (n : ℕ) (f : ℕ → EReal) (t : ℕ) : winMin (n + 1) f t = min (winMin n f t) (f (t + n)) := by
  unfold winMin
  rw [Finset.range_add_one, Finset.inf_insert, inf_comm]

/-- Two adjacent windows make one: the window of length `a + b` at `t` is the window of length `a` at `t` and the
    window of length `b` at `t + a`. -/
theorem winMin_add (a b : ℕ) (f : ℕ → EReal) (t : ℕ) :
    winMin (a + b) f t = min (winMin a f t) (winMin b f (t + a)) := by
  induction b with
  | zero => simp [winMin_zero]
  | succ b ih =>
    rw [← Nat.add_assoc, winMin_succ, ih, winMin_succ, min_assoc, Nat.add_assoc t a b]

/-- The doubling step of the sparse-table scheme. -/
theorem winMin_double (n : ℕ) (f : ℕ → EReal) (t : ℕ) :
    winMin (n + n) f t = min (winMin n f t) (winMin n f (t + n)) := winMin_add n n f t

/-- A window minimum depends only on the entries inside the window. -/
theorem winMin_congr {n : ℕ} {f g : ℕ → EReal} {t : ℕ} (h : ∀ j, j < n → f (t + j) = g (t + j)) :
    winMin n f t = winMin n g t := by
  unfold winMin
  exact Finset.inf_congr rfl fun j hj => h j (Finset.mem_range.mp hj)

/-- The window minimum of a shifted sequence is the shifted window minimum. -/
theorem winMin_shift (n : ℕ) (f : ℕ → EReal) (s t : ℕ) : winMin n (fun k => f (s + k)) t = winMin n f (s + t) := by
  unfold winMin
  exact Finset.inf_congr rfl fun j _ => by rw [Nat.add_assoc]

/-- The signal continued past its end with its last entry. -/
def padded (x : (⟨1, ![1000000]⟩ : Shape).Idx → EReal) (n : ℕ) : EReal :=
  if h : n < 1000000 then x (ix1 ⟨n, h⟩) else x (ix1 ⟨999999, by decide⟩)

theorem padded_lt (x : (⟨1, ![1000000]⟩ : Shape).Idx → EReal) {n : ℕ} (h : n < 1000000) : padded x n = x (ix1 ⟨n, h⟩) := by
  unfold padded; rw [dif_pos h]

theorem padded_ge (x : (⟨1, ![1000000]⟩ : Shape).Idx → EReal) {n : ℕ} (h : 1000000 ≤ n) :
    padded x n = x (ix1 ⟨999999, by decide⟩) := by
  unfold padded; rw [dif_neg (by omega)]

/-- Windowed min-pooling: entry `t` of the result is the minimum of the 256 entries of the continued signal from `t` on. -/
def poolMin (x : (⟨1, ![1000000]⟩ : Shape).Idx → EReal) : (⟨1, ![1000000]⟩ : Shape).Idx → EReal :=
  fun i => winMin 256 (padded x) (i 0).val

end Cert.PoolSpec

end
-- ==== Proof.PoolFold.lean ====
/-
  The body's arithmetic is a window minimum.

  The body folds the scratch line with itself eight times: from `a₀ = line`, `a_{j+1} = min (a_j without its last 2^j
  entries) (a_j without its first 2^j entries)`, the lines shrinking from 131327 entries to 131072. Entry `k` of `a_j`
  is the minimum of the `2^j` entries of the line from `k` on (`PoolSpec.winMin`): a slice read at an index is the
  line read at the shifted index (`slice1_apply`), one fold is one doubling step (`fold_step` with
  `PoolSpec.winMin_double`), and eight of them give windows of 256.
-/
import proofs.«138398_j33182917329254_2_alg».proof.Proof.Gen.KernelIdeal.Skeleton
import proofs.«138398_j33182917329254_2_alg».proof.Proof.PoolSpec
import Idealize.ShloMosaic.Lib.ValueIdx
import Idealize.ShloMosaic.Lib.Pipeline.Value
import Idealize.ShloMosaic.PureOps.Ideal.Laws

noncomputable section

namespace Cert.KernelIdeal.PoolFold

open Idealize.ShloMosaic Idealize.ShloMosaic.ValueIdx Cert.KernelIdeal Cert.KernelIdeal.Gen Cert.PoolSpec

/-- A line of `n` entries as a sequence: its entries, then the top element. -/
def seqOf {n : ℕ} (x : (⟨1, ![n]⟩ : Shape).Idx → EReal) (k : ℕ) : EReal := if h : k < n then x (ix1 ⟨k, h⟩) else ⊤

theorem seqOf_lt {n : ℕ} (x : (⟨1, ![n]⟩ : Shape).Idx → EReal) {k : ℕ} (h : k < n) : seqOf x k = x (ix1 ⟨k, h⟩) := dif_pos h

/-- Entry `k` of the slice of a line that starts at `o` is entry `o + k` of the line. -/
theorem slice1_apply {n n' : ℕ} (o : ℕ) (x : (⟨1, ![n]⟩ : Shape).Idx → EReal)
    (h : (⟨1, ![n]⟩ : Shape).Slices ![o] ⟨1, ![n']⟩) (k : ℕ) (hk : k < n') (hok : o + k < n) :
    extractStridedSlice ⟨1, ![n']⟩ ![o] x h (ix1 ⟨k, hk⟩) = x (ix1 ⟨o + k, hok⟩) :=
  extractStridedSlice_apply ![o] x h (ix1 ⟨k, hk⟩) (ix1 ⟨o + k, hok⟩) (fun a => match a with | ⟨0, _⟩ => rfl)

/-- One fold: if entry `k` of the line is the window minimum of length `w` at `k`, then entry `k` of the minimum of the
    line's slices at 0 and at `s` is the minimum of the windows at `k` and at `k + s`. -/
theorem fold_step {n n' : ℕ} (s w : ℕ) (x : (⟨1, ![n]⟩ : Shape).Idx → EReal)
    (h0 : (⟨1, ![n]⟩ : Shape).Slices ![0] ⟨1, ![n']⟩) (hs : (⟨1, ![n]⟩ : Shape).Slices ![s] ⟨1, ![n']⟩)
    (hn : n' + s ≤ n) (f : ℕ → EReal)
    (hx : ∀ k (h : k < n), x (ix1 ⟨k, h⟩) = winMin w f k) (k : ℕ) (hk : k < n') :
    minimumf (F := Ideal) (φ := .f32) (extractStridedSlice ⟨1, ![n']⟩ ![0] x h0) (extractStridedSlice ⟨1, ![n']⟩ ![s] x hs) (ix1 ⟨k, hk⟩)
      = min (winMin w f k) (winMin w f (k + s)) := by
  show min (extractStridedSlice ⟨1, ![n']⟩ ![0] x h0 (ix1 ⟨k, hk⟩)) (extractStridedSlice ⟨1, ![n']⟩ ![s] x hs (ix1 ⟨k, hk⟩)) = _
  rw [slice1_apply 0 x h0 k hk (by omega), slice1_apply s x hs k hk (by omega), hx, hx, Nat.zero_add, Nat.add_comm s k]

/-- THE BODY'S ARITHMETIC: entry `k` of what the body stores is the minimum of the 256 entries of the scratch line
    from `k` on. -/
theorem pay3_apply (v : Vec Ideal S131327 .f32) (k : ℕ) (hk : k < 131072) :
    k0_pay3 (F := Ideal) v (ix1 ⟨k, hk⟩) = winMin 256 (seqOf v) k := by
  have s0 : ∀ k (h : k < 131327), v (ix1 ⟨k, h⟩) = winMin 1 (seqOf v) k := fun k h => by rw [winMin_one, seqOf_lt v h]
  have s1 := fun k hk => (fold_step 1 1 v slices_S131327_o0_S131326 slices_S131327_o1_S131326 (by decide) (seqOf v) s0 k hk).trans
    (winMin_double 1 (seqOf v) k).symm
  have s2 := fun k hk => (fold_step 2 2 _ slices_S131326_o0_S131324 slices_S131326_o2_S131324 (by decide) (seqOf v) s1 k hk).trans
    (winMin_double 2 (seqOf v) k).symm
  have s3 := fun k hk => (fold_step 4 4 _ slices_S131324_o0_S131320 slices_S131324_o4_S131320 (by decide) (seqOf v) s2 k hk).trans
    (winMin_double 4 (seqOf v) k).symm
  have s4 := fun k hk => (fold_step 8 8 _ slices_S131320_o0_S131312 slices_S131320_o8_S131312 (by decide) (seqOf v) s3 k hk).trans
    (winMin_double 8 (seqOf v) k).symm
  have s5 := fun k hk => (fold_step 16 16 _ slices_S131312_o0_S131296 slices_S131312_o16_S131296 (by decide) (seqOf v) s4 k hk).trans
    (winMin_double 16 (seqOf v) k).symm
  have s6 := fun k hk => (fold_step 32 32 _ slices_S131296_o0_S131264 slices_S131296_o32_S131264 (by decide) (seqOf v) s5 k hk).trans
    (winMin_double 32 (seqOf v) k).symm
  have s7 := fun k hk => (fold_step 64 64 _ slices_S131264_o0_S131200 slices_S131264_o64_S131200 (by decide) (seqOf v) s6 k hk).trans
    (winMin_double 64 (seqOf v) k).symm
  have s8 := fun k hk => (fold_step 128 128 _ slices_S131200_o0_S131072 slices_S131200_o128_S131072 (by decide) (seqOf v) s7 k hk).trans
    (winMin_double 128 (seqOf v) k).symm
  exact s8 k hk

end Cert.KernelIdeal.PoolFold

end
-- ==== Proof.PoolValue.lean ====
/-
  What the pooling call leaves in the result array, at the ideal reading of the floats.

  At grid point `t` the chunk block is entries `131072·t …` of the padded array and the look-ahead block is entries
  `131072·(t+1) …`; the body lays them end to end in the scratch line, so entry `k` of the scratch line is entry
  `131072·t + k` of the padded array for every `k < 131327` (`scr_seq`). The body stores the 256-entry window
  minimum of the scratch line (`PoolFold.pay3_apply`), which is therefore the 256-entry window minimum of the padded
  array at `131072·t + k` (`outBlk_apply`): block `t` of ONE function of the padded array, `G`. The eight blocks — the
  last one cut at the result's end — cover the result array, so it ends holding `G` (`final`).
-/
import proofs.«138398_j33182917329254_2_alg».proof.Proof.PoolRunI
import proofs.«138398_j33182917329254_2_alg».proof.Proof.PoolFold
import Idealize.ShloMosaic.Lib.Pipeline.Value

set_option maxRecDepth 16384

noncomputable section

namespace Cert.KernelIdeal.PoolValue

open Cert.KernelIdeal Cert.KernelIdeal.Gen Cert.KernelIdeal.PoolBody Cert.KernelIdeal.PoolRun Cert.KernelIdeal.PoolFold Cert.PoolSpec
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The scratch line at an index -/

theorem hz1 : (![0] : Fin 1 → Nat) = fun _ => 0 := funext fun a => by fin_cases a; rfl

/-- Below 131072 the scratch line is the chunk block. -/
theorem scr_lo (x0 : Vec Ideal S131072 .f32) (x1 : Vec Ideal S256 .f32) (i : ℕ) (h : i < 131072) :
    scr x0 x1 (ix1 ⟨i, by omega⟩) = x0 (ix1 ⟨i, h⟩) := by
  unfold scr scrPieces
  rw [View.canon_cons_of_not_mem _ _ (by
    rw [Rect.mem_set_unit]; intro hm; have := (hm 0).1
    have e : ((ix1 (⟨i, by omega⟩ : Fin 131327) : S131327.Idx) 0).val = i := rfl
    have e2 : (![131072] : Fin 1 → ℕ) 0 = 131072 := rfl
    omega)]
  have e : (ix1 (⟨i, by omega⟩ : Fin 131327) : S131327.Idx) = rLo.emb (ix1 ⟨i, h⟩) := by
    funext a; apply Fin.ext
    match a with
    | ⟨0, _⟩ => rw [Rect.emb_apply]; show i = 0 + 1 * i; omega
  rw [e, View.canon_cons_emb]
  unfold k0_pay1
  rw [shapeCast_self, shapeCast_self]
  show x0 (rA.idx (ix1 ⟨i, h⟩)) = _
  congr 1
  funext a; apply Fin.ext
  match a with
  | ⟨0, _⟩ => show 0 + 1 * i = i; omega

/-- From 131072 on it is the look-ahead block. -/
theorem scr_hi (x0 : Vec Ideal S131072 .f32) (x1 : Vec Ideal S256 .f32) (i : ℕ) (h : i < 255) :
    scr x0 x1 (ix1 ⟨131072 + i, by omega⟩) = x1 (ix1 ⟨i, by omega⟩) := by
  unfold scr scrPieces
  have e : (ix1 (⟨131072 + i, by omega⟩ : Fin 131327) : S131327.Idx) = rHi.emb (ix1 ⟨i, h⟩) := by
    funext a; apply Fin.ext
    match a with
    | ⟨0, _⟩ => rw [Rect.emb_apply]; show 131072 + i = 131072 + 1 * i; omega
  rw [e, View.canon_cons_emb]
  unfold k0_pay2
  rw [shapeCast_self, shapeCast_self]
  show x1 (rB.idx (ix1 ⟨i, h⟩)) = _
  congr 1
  funext a; apply Fin.ext
  match a with
  | ⟨0, _⟩ => show 0 + 1 * i = i; omega

/-! ## The blocks are reads of the padded array -/

/-- The padded array as the call finds it, as a sequence. -/
def pseq (c : Dev nD) : ℕ → EReal := seqOf (n := 1048832) (V m c main_v3)

/-- The printed index maps, decided over the grid: chunk `t` starts at block `t`, the look-ahead at block `512·(t+1)`
    of 256 entries, the result block at `t`; and where the result block ends inside the result array. -/
theorem idx_facts : ∀ t : Fin cfg0.N, win0_0.index t (0 : Fin 1) = t.val ∧ win0_1.index t (0 : Fin 1) = (t.val + 1) * 512
    ∧ win0_2.index t (0 : Fin 1) = t.val
    ∧ t.val * 131072 + win0_2.xsize (grid0.coords t) (0 : Fin 1) = min ((t.val + 1) * 131072) 1000000 ∧ t.val < 8 :=
  (by decide +kernel : ∀ t : Fin grid0.N, _)

/-- Entry `i` of chunk block `t` is entry `131072·t + i` of the padded array. -/
theorem blkA_apply (c : Dev nD) (t : Fin cfg0.N) (i : ℕ) (h : i < 131072) :
    blkA m c t (ix1 ⟨i, h⟩) = pseq m c (t.val * 131072 + i) := by
  obtain ⟨e0, -, -, -, ht⟩ := idx_facts t
  have hm : win0_0.moved (grid0.coords t) (ix1 ⟨i, h⟩) = true :=
    (win0_0.moved_iff _ _).mpr fun a => by
      have := ((ix1 (⟨i, h⟩ : Fin 131072) : S131072.Idx) a).isLt; unfold Window.xsize; rw [clip0 t a]; exact this
  unfold blkA Window.fill
  rw [dif_pos hm]
  unfold pseq
  rw [seqOf_lt _ (show t.val * 131072 + i < 1048832 by omega)]
  unfold iblk
  show V m c main_v3 (((cfg0.win 0).blk t).view.emb _) = V m c main_v3 _
  congr 1
  funext a; apply Fin.ext
  match a with
  | ⟨0, _⟩ => show win0_0.index t (0 : Fin 1) * 131072 + 1 * i = t.val * 131072 + i; omega

/-- Entry `i` of look-ahead block `t` is entry `131072·(t+1) + i` of the padded array. -/
theorem blkB_apply (c : Dev nD) (t : Fin cfg0.N) (i : ℕ) (h : i < 256) :
    blkB m c t (ix1 ⟨i, h⟩) = pseq m c ((t.val + 1) * 131072 + i) := by
  obtain ⟨-, e1, -, -, ht⟩ := idx_facts t
  have hm : win0_1.moved (grid0.coords t) (ix1 ⟨i, h⟩) = true :=
    (win0_1.moved_iff _ _).mpr fun a => by
      have := ((ix1 (⟨i, h⟩ : Fin 256) : S256.Idx) a).isLt; unfold Window.xsize; rw [clip1 t a]; exact this
  unfold blkB Window.fill
  rw [dif_pos hm]
  unfold pseq
  rw [seqOf_lt _ (show (t.val + 1) * 131072 + i < 1048832 by omega)]
  unfold iblk
  show V m c main_v3 (((cfg0.win 1).blk t).view.emb _) = V m c main_v3 _
  congr 1
  funext a; apply Fin.ext
  match a with
  | ⟨0, _⟩ => show win0_1.index t (0 : Fin 1) * 256 + 1 * i = (t.val + 1) * 131072 + i; omega

/-- The scratch line at point `t` is the padded array from `131072·t` on. -/
theorem scr_seq (c : Dev nD) (t : Fin cfg0.N) (k : ℕ) (hk : k < 131327) :
    seqOf (n := 131327) (scr (blkA m c t) (blkB m c t)) k = pseq m c (t.val * 131072 + k) := by
  rw [seqOf_lt _ hk]
  by_cases h : k < 131072
  · rw [scr_lo _ _ k h, blkA_apply m c t k h]
  · obtain ⟨i, rfl⟩ : ∃ i, k = 131072 + i := ⟨k - 131072, by omega⟩
    rw [scr_hi _ _ i (by omega), blkB_apply m c t i (by omega),
      show (t.val + 1) * 131072 + i = t.val * 131072 + (131072 + i) by omega]

/-- Entry `j` of the output block at point `t` is the 256-entry window minimum of the padded array at
    `131072·t + j`. -/
theorem outBlk_apply (c : Dev nD) (t : Fin cfg0.N) (j : ℕ) (hj : j < 131072) :
    outBlk (blkA m c t) (blkB m c t) (ix1 ⟨j, hj⟩) = winMin 256 (pseq m c) (t.val * 131072 + j) := by
  unfold outBlk
  rw [View.canon_unit_zero hz1, View.ld_unit_zero (S := S131327) hz1, pay3_apply _ j hj,
    ← winMin_shift 256 (pseq m c) (t.val * 131072) j]
  exact winMin_congr fun i hi => by rw [scr_seq m c t (j + i) (by omega)]

/-! ## The result array -/

/-- The result as one function of the padded array. -/
def G (c : Dev nD) : S1000000.Idx → EReal := fun i => winMin 256 (pseq m c) (i 0).val

/-- WHAT POINT `t` WRITES BACK is block `t` of `G`, cut at the result's end. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after2]
  obtain ⟨-, -, e2, -, -⟩ := idx_facts t
  funext j
  have hj : (j 0).val < 131072 := Nat.lt_of_lt_of_le (j 0).isLt (win0_2.xsize_le (grid0.coords t) 0)
  show outBlk (blkA m c t) (blkB m c t) (win0_2.xinj (grid0.coords t) j) = G m c (((cfg0.win 2).blk t).view.emb j)
  have e : win0_2.xinj (grid0.coords t) j = ix1 ⟨(j 0).val, hj⟩ := by
    funext a; match a with | ⟨0, _⟩ => rfl
  rw [e, outBlk_apply m c t _ hj]
  unfold G
  have e4 : ((((cfg0.win 2).blk t).view.emb j) 0).val = t.val * 131072 + (j 0).val := by
    show win0_2.index t (0 : Fin 1) * 131072 + 1 * (j 0).val = _
    omega
  rw [e4]

/-- An index of the result array is in point `t`'s block iff it lies between the block's start and its cut end. -/
theorem mem_blk (t : Fin cfg0.N) (i : S1000000.Idx) :
    i ∈ ((cfg0.win 2).blk t).view.set ↔ win0_2.index t 0 * 131072 ≤ (i 0).val
      ∧ (i 0).val < win0_2.index t 0 * 131072 + win0_2.xsize (grid0.coords t) 0 := by
  show i ∈ ((View.whole main_v4).slice (win0_2.rect t)).set ↔ _
  rw [View.set_slice_whole, Rect.mem_set_unit]
  exact ⟨fun h => h 0, fun h a => match a with | ⟨0, _⟩ => h⟩

/-- The eight blocks cover the result array: entry `i` is in block `i / 131072`. -/
theorem cover (i : S1000000.Idx) : ∃ t : Fin cfg0.N, (cfg0.win 2).flush t = true ∧ i ∈ ((cfg0.win 2).blk t).view.set := by
  have hi : (i 0).val < 1000000 := (i 0).isLt
  refine ⟨⟨(i 0).val / 131072, by show _ < grid0.N; rw [N_0]; omega⟩, flush0_2 _, ?_⟩
  rw [mem_blk]
  obtain ⟨-, -, e2, e3, -⟩ := idx_facts ⟨(i 0).val / 131072, by show _ < grid0.N; rw [N_0]; omega⟩
  rw [e2]
  show (i 0).val / 131072 * 131072 ≤ (i 0).val ∧ (i 0).val < (i 0).val / 131072 * 131072 + _
  constructor
  · omega
  · have e3' : (i 0).val / 131072 * 131072 + win0_2.xsize (grid0.coords ⟨(i 0).val / 131072, by show _ < grid0.N; rw [N_0]; omega⟩) (0 : Fin 1)
        = min (((i 0).val / 131072 + 1) * 131072) 1000000 := e3
    rw [e3']; omega

/-- THE RESULT ARRAY after the run is `G` of the padded array. -/
theorem final (c : Dev nD) : (dats m 0 c).arrAt 2 cfg0.N = G m c :=
  (dats m 0 c).arrAt_eq_of_cover 2 (G m c) (fun t _ => flushed_eq m c t) cover

end Cert.KernelIdeal.PoolValue

end
-- ==== Proof.PoolBridge.lean ====
/-
  The padded array is the signal continued with its last entry, so the kernel's result is windowed min-pooling.

  The host prefix slices the signal's last entry, broadcasts it to 48832 entries and joins them to the signal: entry `n`
  of the padded array is the signal's entry `n` for `n < 1000000` and its last entry from there on (`pseq_eq`) — the
  sequence `PoolSpec.padded`. The result array is the 256-entry window minimum of the padded array (`PoolValue.final`),
  and a window starting below 1000000 ends below 1000256, well inside the padded array: the result is `PoolSpec.poolMin`
  of the signal (`G_eq`), which is also what the reference computes.
-/
import proofs.«138398_j33182917329254_2_alg».proof.Proof.PoolValue
import Idealize.ShloMosaic.Lib.StableHlo.Run

set_option maxRecDepth 16384

noncomputable section

namespace Cert.KernelIdeal.PoolBridge

open Cert.KernelIdeal Cert.KernelIdeal.Gen Cert.KernelIdeal.PoolRun Cert.KernelIdeal.PoolFold Cert.KernelIdeal.PoolValue Cert.PoolSpec
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The appended entries: the signal's last entry, 48832 times. -/
def tail (x : S1000000.Idx → EReal) : S48832.Idx → EReal :=
  broadcastInDim S48832 ![] bcast_S_S48832
    (shapeCast S_ (extractStridedSlice S1 ![999999] x slices_S1000000_S1_999999) shapeCasts_S1_S_)

theorem tail_apply (x : S1000000.Idx → EReal) (i : S48832.Idx) : tail x i = x (ix1 ⟨999999, by decide⟩) := by
  unfold tail
  generalize hy : shapeCast S_ (extractStridedSlice S1 ![999999] x slices_S1000000_S1_999999) shapeCasts_S1_S_ = y
  rw [broadcastInDim_apply _ bcast_S_S48832 y i (fun a => a.elim0) (fun a => a.elim0)]
  subst hy
  rw [shapeCast_apply (extractStridedSlice S1 ![999999] x slices_S1000000_S1_999999) shapeCasts_S1_S_ (fun a => a.elim0)
    (ix1 ⟨0, Nat.one_pos⟩) ?hk]
  · exact extractStridedSlice_apply ![999999] x slices_S1000000_S1_999999 (ix1 ⟨0, Nat.one_pos⟩) (ix1 ⟨999999, by decide⟩)
      (fun a => match a with | ⟨0, _⟩ => rfl)
  · rw [Shape.rowMajor_val_one]
    have h1 := (S_.rowMajor (fun a => a.elim0)).isLt
    have h2 : S_.numel = 1 := by decide
    show 0 = _
    omega

/-- The padded array as the call finds it is the signal joined to the appended entries. -/
theorem V3_eq (c : Dev nD) : (V m c main_v3 : S1048832.Idx → EReal)
    = concatenate S1048832 0 [⟨S1000000, m ((c : Thread nD τ).loc main_arg0)⟩, ⟨S48832, tail (m ((c : Thread nD τ).loc main_arg0))⟩]
        concatenates_S1000000_S48832_S1048832_d0 := by
  show StableHlo.after hostOps0 (fun b => m (c, b)) (Proc.devRef .tc main_v3) = _
  after_results
  rfl

/-- Entry `n` of the padded array is entry `n` of the signal continued with its last entry. -/
theorem pseq_eq (c : Dev nD) (n : ℕ) (hn : n < 1048832) : pseq m c n = padded (m ((c : Thread nD τ).loc main_arg0)) n := by
  unfold pseq
  rw [seqOf_lt _ hn, V3_eq]
  by_cases h : n < 1000000
  · rw [padded_lt _ h]
    exact concatenate_pair_apply_left (0 : Fin 1) (m ((c : Thread nD τ).loc main_arg0)) (tail (m ((c : Thread nD τ).loc main_arg0)))
      concatenates_S1000000_S48832_S1048832_d0 (ix1 ⟨n, hn⟩) rfl (ix1 ⟨n, h⟩) (fun b => match b with | ⟨0, _⟩ => rfl)
  · rw [padded_ge _ (Nat.le_of_not_lt h), ← tail_apply (m ((c : Thread nD τ).loc main_arg0)) (ix1 ⟨n - 1000000, by omega⟩)]
    refine concatenate_pair_apply_right (0 : Fin 1) (m ((c : Thread nD τ).loc main_arg0)) (tail (m ((c : Thread nD τ).loc main_arg0)))
      concatenates_S1000000_S48832_S1048832_d0 (ix1 ⟨n, hn⟩) rfl rfl (ix1 ⟨n - 1000000, by omega⟩) (fun b hb => ?_) ?_
    · exact absurd (Subsingleton.elim _ _) hb
    · show n - 1000000 + 1000000 = n
      omega

/-- THE KERNEL'S RESULT is windowed min-pooling of the signal. -/
theorem G_eq (c : Dev nD) : G m c = poolMin (m ((c : Thread nD τ).loc main_arg0)) := by
  funext i
  have hi : (i 0).val < 1000000 := (i 0).isLt
  unfold G poolMin
  exact winMin_congr fun j hj => pseq_eq m c _ (by omega)

end Cert.KernelIdeal.PoolBridge

end
-- ==== Proof.RefPool.lean ====
/-
  The reference program read as windowed min-pooling.

  The reference continues the signal of one million entries with 256 copies of its last entry (a slice of the last
  entry, reshaped to a scalar, broadcast to 256 entries and joined to the signal), builds the table of positions
  `idx[t, k] = t + k` as 32-bit words (two ramps broadcast and added; the "negative position" correction never fires
  because `t + k ≤ 1000254 < 2³¹`), gathers `windows[t, k] = continued[t + k]` (every position is inside the continued
  signal, so the gather's clamp is the identity) and takes the minimum over `k` from `+∞`.

  Read one element at a time:
  * `v3_apply`: the joined array at `n` is `PoolSpec.padded x n`;
  * `v10_apply`, `v15_apply`, `v16_apply`: the position table at `(t, k)` is the word of `t + k`;
  * `v17_apply`: the gathered array at `(t, k)` is `padded x (t + k)`;
  * `ref_eq`: the minimum over `k < 256` from the top element is `PoolSpec.winMin 256 (padded x) t`, that is `PoolSpec.poolMin x`.
  No step evaluates anything over the index set: every fact about a position is arithmetic on `t < 1000000`, `k < 256`.
-/
import proofs.«138398_j33182917329254_2_alg».proof.Proof.Gen.ReferenceIdeal.Read
import proofs.«138398_j33182917329254_2_alg».proof.Proof.PoolSpec
import Idealize.ShloMosaic.Lib.ValueIdx
import Idealize.ShloMosaic.Lib.Pipeline.Value
import Idealize.ShloMosaic.PureOps.Ideal.Laws

noncomputable section

namespace Cert.RefPool

open Idealize.ShloMosaic Idealize.ShloMosaic.ValueIdx Cert.ReferenceIdeal Cert.ReferenceIdeal.Read Cert.ReferenceIdeal.Gen
  Cert.PoolSpec

/-! ## The table of positions -/

/-- The sum of the two ramps: entry `(t, k)` is the 32-bit word of `t + k`. -/
theorem v10_apply (t : Fin 1000000) (k : Fin 256) :
    val_main_v10 (F := Ideal) (ix2 t k) = BitVec.ofNat 32 (t.val + k.val) := by
  rw [val_main_v10_apply, val_main_v8_apply, val_main_v5_apply, val_main_v4_apply, val_main_v9_apply, val_main_v7_apply,
    val_main_v6_apply]
  show (BitVec.ofNat 32 t.val) + (BitVec.ofNat 32 k.val) = _
  rw [← BitVec.ofNat_add]

/-- The word of a natural number below `2³¹` is not negative as a signed integer. -/
theorem slt_zero_of_small (n : Nat) (h : n < 2147483648) : IntOp.cmpi .slt (BitVec.ofNat 32 n) 0#32 = 0#1 := by
  unfold IntOp.cmpi
  have : (BitVec.ofNat 32 n).slt 0#32 = false := by
    rw [BitVec.slt_eq_decide, BitVec.toInt_eq_toNat_of_lt (by rw [BitVec.toNat_ofNat]; omega)]
    simp
    omega
  simp only [this]
  rfl

/-- The correction of negative positions never fires: after the select, entry `(t, k)` is still the word of `t + k`. -/
theorem v15_apply (t : Fin 1000000) (k : Fin 256) :
    val_main_v15 (F := Ideal) (ix2 t k) = BitVec.ofNat 32 (t.val + k.val) := by
  rw [val_main_v15_apply, val_main_v12_apply, v10_apply, val_main_v11_apply, val_main_c_apply,
    slt_zero_of_small _ (by have := t.isLt; have := k.isLt; omega), select_zero]

/-- The table with a trailing unit axis, at the start-index position `[t, k, 0]` of result index `(t, k)`. -/
theorem v16_apply (t : Fin 1000000) (k : Fin 256) :
    val_main_v16 (F := Ideal) (takeIdx (ix2 t k)) = BitVec.ofNat 32 (t.val + k.val) := by
  rw [val_main_v16_apply]
  have : idx_main_v16 (takeIdx (ix2 t k)) = ix2 t k := by
    funext a
    match a with
    | ⟨0, _⟩ => rfl
    | ⟨1, _⟩ => rfl
  rw [this, v15_apply]

/-! ## The continued signal -/

/-- The 256 appended entries are all the signal's last entry. -/
theorem v2_apply (x0 : (⟨S1000000, .f32⟩ : BufTy).Contents (Elt Ideal)) (i : S256.Idx) :
    val_main_v2 (F := Ideal) x0 i = x0 (ix1 ⟨999999, by decide⟩) := by
  rw [val_main_v2_apply]
  unfold val_main_v1
  rw [shapeCast_apply (val_main_v0 (F := Ideal) x0) shapeCasts_S1_S_ (idx_main_v2 i) (ix1 ⟨0, Nat.one_pos⟩) ?hk,
    val_main_v0_apply]
  · congr 1
    funext a
    match a with
    | ⟨0, _⟩ => rfl
  · rw [Shape.rowMajor_val_one]
    have h1 := (S_.rowMajor (idx_main_v2 i)).isLt
    have h2 : S_.numel = 1 := by decide
    show 0 = _
    omega

/-- The joined array is the signal continued past its end with its last entry. -/
theorem v3_apply (x0 : (⟨S1000000, .f32⟩ : BufTy).Contents (Elt Ideal)) (n : Fin 1000256) :
    val_main_v3 (F := Ideal) x0 (ix1 n) = padded x0 n.val := by
  unfold val_main_v3
  by_cases h : n.val < 1000000
  · rw [padded_lt x0 h]
    exact concatenate_pair_apply_left (0 : Fin 1) x0 (val_main_v2 (F := Ideal) x0) concatenates_S1000000_S256_S1000256_d0
      (ix1 n) rfl (ix1 ⟨n.val, h⟩) (fun b => match b with | ⟨0, _⟩ => rfl)
  · rw [padded_ge x0 (Nat.le_of_not_lt h), ← v2_apply x0 (ix1 ⟨n.val - 1000000, by have := n.isLt; omega⟩)]
    refine concatenate_pair_apply_right (0 : Fin 1) x0 (val_main_v2 (F := Ideal) x0) concatenates_S1000000_S256_S1000256_d0
      (ix1 n) rfl rfl (ix1 ⟨n.val - 1000000, by have := n.isLt; omega⟩) (fun b hb => ?_) ?_
    · exact absurd (Subsingleton.elim _ _) hb
    · show n.val - 1000000 + 1000000 = n.val
      omega

/-! ## The windows -/

/-- The gathered array at `(t, k)` is the continued signal at `t + k`: the position is read as a signed integer and
    clamped into `[0, 1000255]`, and `t + k ≤ 1000254` is its own clamp. -/
theorem v17_apply (x0 : (⟨S1000000, .f32⟩ : BufTy).Contents (Elt Ideal)) (t : Fin 1000000) (k : Fin 256) :
    val_main_v17 (F := Ideal) x0 (ix2 t k) = padded x0 (t.val + k.val) := by
  unfold val_main_v17
  refine (gather_take_apply (N := 1000256) (R := 1000000) (C := 256) (by decide)
    gather_S1000256_S1000000x256x1_S1000000x256_n_0_n_n_0_2_1_wf (val_main_v3 (F := Ideal) x0) (val_main_v16 (F := Ideal))
    (ix2 t k)).trans ?_
  rw [v3_apply]
  congr 1
  show min (val_main_v16 (F := Ideal) (takeIdx (ix2 t k))).toInt.toNat (1000256 - 1) = t.val + k.val
  have ht := t.isLt
  have hk := k.isLt
  rw [v16_apply, BitVec.toInt_eq_toNat_of_lt (by rw [BitVec.toNat_ofNat]; omega), BitVec.toNat_ofNat, Int.toNat_natCast]
  omega

/-- The reduction's initial value, the pattern of `+∞`, is the top element. -/
theorem top_eq : val_main_cst (F := Ideal) (Shape.Idx.first h_S_) = (⊤ : EReal) := by
  rw [val_main_cst_apply]
  show Ideal.ofBits .f32 0x7F800000#32 = ⊤
  simp [Ideal.ofBits, Ideal.ieee]

/-! ## The reference is windowed min-pooling -/

/-- THE REFERENCE'S RESULT: entry `t` is the minimum of the 256 entries of the continued signal from `t` on. -/
theorem ref_eq (x0 : (⟨S1000000, .f32⟩ : BufTy).Contents (Elt Ideal)) :
    val_main_v18 (F := Ideal) x0 = poolMin x0 := by
  funext i
  obtain ⟨t, rfl⟩ : ∃ t, i = ix1 t := ⟨i 0, eq_ix1 i⟩
  unfold val_main_v18
  have h : S1000000x256.Reduces [1] S1000000 := by decide
  -- the reduction over the window axis is the fold of `min` from the initial value over that axis's 256 coordinates
  refine (Host.reduce_eq_fold_single (α := Ideal .f32) FloatOps.minimumf (val_main_v17 (F := Ideal) x0) (val_main_cst (F := Ideal))
    reducesTo_S1000000x256_S1000000_d1 h h_S_ (ix1 t)).trans ?_
  rw [top_eq]
  -- the folded entries are the continued signal at `t + k`
  have hf : (val_main_v17 (F := Ideal) x0 ∘ h.lift (ix1 t)) = fun k : Fin 256 => padded x0 (t.val + k.val) := by
    funext k
    have : h.lift (ix1 t) k = ix2 t k := by
      funext c
      match c with
      | ⟨0, _⟩ => rfl
      | ⟨1, _⟩ => rfl
    show val_main_v17 (F := Ideal) x0 (h.lift (ix1 t) k) = _
    rw [this]
    exact v17_apply x0 t k
  rw [hf]
  -- a fold of `min` from the top element over `Fin 256` is the infimum over `Finset.range 256`
  show _ = winMin 256 (padded x0) t.val
  unfold winMin
  rw [← Finset.image_fin_univ, Finset.inf_image]
  rfl

end Cert.RefPool

end
-- ==== Proof.lean ====
/-
  Windowed min-pooling: a kernel that tiles the signal into eight chunks, each with a 256-entry look-ahead, and folds
  every chunk by the doubling scheme, against a reference that gathers all windows and takes their minima.

  Both programs continue the signal of one million entries with its last entry and compute, at every `t`, the minimum of
  the 256 entries from `t` on (`PoolSpec.poolMin`). On the extended reals `min` is associative, commutative and
  idempotent with top element `+∞`, so the kernel's eight nested pairwise minima over shifted copies
  (`PoolSpec.winMin_double`, applied eight times) and the reference's fold over the 256 gathered entries starting from `+∞`
  are the same infimum; no finiteness of the input is used. The kernel's chunks cover the result array — the last one is
  cut at the array's end — and a window that starts inside the signal never reaches past the padding either program
  appends, so the different paddings (48832 entries against 256) agree wherever they are read.

  The five conjuncts: each program runs to the end without a fault and leaves the signal as it found it (the kernel's two
  readings through `PoolRun.frame`, the reference through its run); the idealization rewrote nothing, so it preserves
  the kernel trivially; and at the ideal reading both results are `poolMin` of the signal (`PoolBridge.G_eq` over
  `PoolValue.final`, and `RefPool.ref_eq`).
-/
import proofs.«138398_j33182917329254_2_alg».proof.Defs
import proofs.«138398_j33182917329254_2_alg».proof.Proof.Gen.Kernel
import proofs.«138398_j33182917329254_2_alg».proof.Proof.Gen.Kernel.Skeleton
import proofs.«138398_j33182917329254_2_alg».proof.Proof.Gen.Kernel.Launch
import proofs.«138398_j33182917329254_2_alg».proof.Proof.Gen.Kernel.Points
import proofs.«138398_j33182917329254_2_alg».proof.Proof.Gen.KernelIdeal
import proofs.«138398_j33182917329254_2_alg».proof.Proof.Gen.KernelIdeal.Skeleton
import proofs.«138398_j33182917329254_2_alg».proof.Proof.Gen.KernelIdeal.Launch
import proofs.«138398_j33182917329254_2_alg».proof.Proof.Gen.KernelIdeal.Points
import proofs.«138398_j33182917329254_2_alg».proof.Proof.Gen.ReferenceIdeal
import proofs.«138398_j33182917329254_2_alg».proof.Proof.Gen.Pre_finite_inputs
import proofs.«138398_j33182917329254_2_alg».proof.Proof.Gen.ReferenceIdeal.Run
import proofs.«138398_j33182917329254_2_alg».proof.Proof.Gen.ReferenceIdeal.Read
import proofs.«138398_j33182917329254_2_alg».proof.Proof.PoolRunK
import proofs.«138398_j33182917329254_2_alg».proof.Proof.PoolBridge
import proofs.«138398_j33182917329254_2_alg».proof.Proof.RefPool
import Idealize.ShloMosaic.Adequacy
import Idealize.ShloMosaic.Init

noncomputable section

namespace Cert.Proof

open Idealize.ShloMosaic Idealize.ShloMosaic.TcCoe Idealize.SL.Sem

/-- The kernel as printed runs to the end and leaves the signal unchanged. -/
theorem frame_k : Cert.frame_Kernel := fun m ρ _ => Cert.Kernel.PoolRun.frame m ρ

/-- So does its idealization. -/
theorem frame_ki : Cert.frame_KernelIdeal := fun m ρ _ => Cert.KernelIdeal.PoolRun.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the signal both programs end with `poolMin` of it in their result arrays. -/
theorem algebraic : Cert.algebraic_KernelIdeal_ReferenceIdeal := by
  intro m ρ m' ρ' _ hagree
  refine ⟨fun c => Cert.PoolSpec.poolMin (m ((c.tc : Thread Cert.KernelIdeal.nD Cert.KernelIdeal.τ).loc Cert.KernelIdeal.main_arg0)), ?_, ?_⟩
  · exact (θ_run Cert.KernelIdeal.defs _ _).mono
      (fun r h c => ⟨(h c).1.trans ((Cert.KernelIdeal.PoolValue.final m c).trans (Cert.KernelIdeal.PoolBridge.G_eq m c)), (h c).2⟩)
      (Cert.KernelIdeal.PoolRun.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.RefPool.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
